-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2048x256 .f32 .bf16
  ∧ IdealRules.truncf_extf.Statement Cert.KernelIdeal.S512x256 .f32 .bf16
  ∧ IdealRules.truncf_extf.Statement Cert.KernelIdeal.S512x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S4096x256 : Shape := ⟨2, ![4096, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S8192x256 .f32) (main_arg1 : FVec F S4096x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S8192x256 : Shape := ⟨2, ![8192, 256]⟩
abbrev S4096x256 : Shape := ⟨2, ![4096, 256]⟩
abbrev S8192x4096 : Shape := ⟨2, ![8192, 4096]⟩
abbrev S2048x256 : Shape := ⟨2, ![2048, 256]⟩
abbrev S512x256 : Shape := ⟨2, ![512, 256]⟩
abbrev S2048x512 : Shape := ⟨2, ![2048, 512]⟩
abbrev S2048x1 : Shape := ⟨2, ![2048, 1]⟩
abbrev S2048 : Shape := ⟨1, ![2048]⟩
abbrev S1x256 : Shape := ⟨2, ![1, 256]⟩
abbrev S1x512 : Shape := ⟨2, ![1, 512]⟩

abbrev nBuf : Space → Nat
  | .hbm => 3
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S512x256, .f32⟩
  | .local _ .vmem, ⟨4, _⟩ => ⟨S2048x512, .f32⟩
  | .local _ .vmem, ⟨5, _⟩ => ⟨S2048x512, .f32⟩
  | .local _ .vmem, ⟨6, _⟩ => ⟨S2048x256, .bf16⟩
  | .local _ .vmem, ⟨7, _⟩ => ⟨S2048x256, .bf16⟩
  | .local _ .vmem, ⟨8, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x256_S512x256_0_0 : ∀ a, (![0, 0] : Fin 2 → Nat) a + S512x256.size a ≤ S512x256.size a
  h_S512x256 : 0 < S512x256.numel
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x256_S512x256_S2048x512_1_1_0_0_n_n_wf : DotDims.WF S2048x256 S512x256 S2048x512 [1] [1] [0] [0] [] []
  dot_S1x256_S512x256_S1x512_1_1_0_0_n_n_wf : DotDims.WF S1x256 S512x256 S1x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .f32 = 32 ∨ (Rect.block (s := S4096x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x4096.size a
  hwx0_2 : ∀ i : grid0.Coords, EltTy.bits .f32 = 32 ∨ (Rect.block (s := S8192x4096) S2048x512.size (cc0_transform_2 i) (hinb0_2 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S1x256_S512x256_S1x512_1_1_0_0_n_n : DotDims S1x256 S512x256 S1x512 where
  lhsContracting := [1]
  rhsContracting := [1]
  lhsNonContracting := [0]
  rhsNonContracting := [0]
  lhsBatch := []
  rhsBatch := []
  wf := dot_S1x256_S512x256_S1x512_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S8192x4096 : Shape := ⟨2, ![8192, 4096]⟩
abbrev S8192x1 : Shape := ⟨2, ![8192, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S4096x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S4096x256, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S8192x4096, .f32⟩
  | .hbm, ⟨17, _⟩ => ⟨S8192x1, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  reducesTo_S4096x256_S4096_d1 : S4096x256.ReducesTo [1] S4096
  bcast_S_S4096 : S_.BroadcastsInDim S4096 (![] : Fin 0 → Fin S4096.rank)
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  dot_S8192x256_S4096x256_S8192x4096_1_1_0_0_n_n_wf : DotDims.WF S8192x256 S4096x256 S8192x4096 [1] [1] [0] [0] [] []

variable [Facts₀]

def dot_S8192x256_S4096x256_S8192x4096_1_1_0_0_n_n : DotDims S8192x256 S4096x256 S8192x4096 where
  lhsContracting := [1]
  rhsContracting := [1]
  lhsNonContracting := [0]
  rhsNonContracting := [0]
  lhsBatch := []
  rhsBatch := []
  wf := dot_S8192x256_S4096x256_S8192x4096_1_1_0_0_n_n_wf

class Facts : Prop extends Facts₀ where

variable [Facts]
-- ==== Proof.CosineSpec.lean ====
/-
  Cosine similarity of every query row against every support row, as one function of the two argument arrays on the
  extended reals: entry (p, n) is the inner product of row p of the queries with row n of the supports, divided by the
  product of the two rows' Euclidean norms, each norm floored at a positive constant ε.

  Also here: the one algebraic fact the comparison of the two programs needs. A computation that splits each factor
  x into a leading part x and a remainder x - x, and adds the products of the parts, returns the plain inner product
  when every entry is a real number, because then x - x = 0 and every product with it vanishes. On the extended reals
  this needs the entries to be real: at an infinity x - x is not 0.
-/
import Mathlib.Data.EReal.Basic
import Idealize.ShloMosaic.PureOps.Ideal
import Idealize.ShloMosaic.PureOps.Ideal.Laws
import Idealize.ShloMosaic.Lib.ValueIdx

noncomputable section

namespace CosineSpec

open Idealize.ShloMosaic Idealize.ShloMosaic.ValueIdx
open scoped BigOperators

/-! ## Real entries -/

/-- An extended real that is a real number. -/
def IsReal (x : EReal) : Prop := ∃ r : ℝ, x = (r : EReal)

theorem IsReal.sub_self {x : EReal} (h : IsReal x) : x - x = 0 := by
  obtain ⟨r, rfl⟩ := h
  rw [← EReal.coe_sub]
  simp

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A product with the remainder of a real entry vanishes … -/
theorem mul_rem {x y : EReal} (hy : IsReal y) : x * (y - y) = 0 := by rw [hy.sub_self, mul_zero]
/-- … on either side. -/
theorem rem_mul {x y : EReal} (hx : IsReal x) : (x - x) * y = 0 := by rw [hx.sub_self, zero_mul]

/-! ## The function -/

/-- The floor of the norms: the single-precision word nearest 1e-8, read as the extended real it encodes. -/
abbrev eps : EReal := Ideal.ofBits .f32 0x322BCC77#32

/-- The cosine of two rows a, b over one finite index type: a·b / (max(√(a·a), ε) · max(√(b·b), ε)). -/
def cosRows {D : Type} [Fintype D] (a b : D → EReal) : EReal :=
  Ideal.div (∑ d, a d * b d) (max (Ideal.sqrt (∑ d, a d * a d)) eps * max (Ideal.sqrt (∑ d, b d * b d)) eps)

/-- Entry (p, n) of the result: the cosine of query row p and support row n. -/
def entry (q : (⟨2, ![8192, 256]⟩ : Shape).Idx → EReal) (s : (⟨2, ![4096, 256]⟩ : Shape).Idx → EReal)
    (p : Fin 8192) (n : Fin 4096) : EReal :=
  cosRows (fun d : Fin 256 => q (ix2 p d)) (fun d : Fin 256 => s (ix2 n d))

/-- The whole result array as one function of the two argument arrays. -/
def cosine (q : (⟨2, ![8192, 256]⟩ : Shape).Idx → EReal) (s : (⟨2, ![4096, 256]⟩ : Shape).Idx → EReal) :
    (⟨2, ![8192, 4096]⟩ : Shape).Idx → EReal :=
  fun i => entry q s ⟨(i 0).val, (i 0).isLt⟩ ⟨(i 1).val, (i 1).isLt⟩

theorem cosine_ix2 (q : (⟨2, ![8192, 256]⟩ : Shape).Idx → EReal) (s : (⟨2, ![4096, 256]⟩ : Shape).Idx → EReal)
    (p : Fin 8192) (n : Fin 4096) : cosine q s (ix2 p n) = entry q s p n := rfl

/-! ## The split inner product is the inner product, on real entries -/

/-- a·b + a·(b - b) + (a - a)·b = a·b when a and b have real entries. -/
theorem split_dot {D : Type} [Fintype D] (a b : D → EReal) (ha : ∀ d, IsReal (a d)) (hb : ∀ d, IsReal (b d)) :
    ((∑ d, a d * b d) + ∑ d, a d * (b d - b d)) + ∑ d, (a d - a d) * b d = ∑ d, a d * b d := by
  have e1 : ∀ d, a d * (b d - b d) = 0 := fun d => mul_rem (hb d)
  have e2 : ∀ d, (a d - a d) * b d = 0 := fun d => rem_mul (ha d)
  simp only [e1, e2, Finset.sum_const_zero, add_zero]

/-- Σ 1·(b·b) + Σ 1·(b·b - b·b) = Σ b·b when b has real entries: the squared norm summed against a row of ones,
    leading part and remainder. -/
theorem split_sq {D : Type} [Fintype D] (one : EReal) (h1 : one = 1) (b : D → EReal) (hb : ∀ d, IsReal (b d)) :
    (∑ d, one * (b d * b d)) + ∑ d, one * (b d * b d - b d * b d) = ∑ d, b d * b d := by
  subst h1
  have e1 : ∀ d, (1 : EReal) * (b d * b d - b d * b d) = 0 := fun d => mul_rem ((hb d).mul (hb d))
  simp only [e1, Finset.sum_const_zero, add_zero, one_mul]

end CosineSpec

end
-- ==== Proof.FiniteInputs.lean ====
/-
  Finiteness of the inputs, read off the precondition.

  The precondition is a function of the two argument arrays that returns a single bit: for each array it takes
  the absolute value |x| of every entry, compares |x| < +∞ entrywise (the bound being the single-precision word
  0x7F800000, the pattern of +∞), and conjoins all the resulting bits; the final bit is the conjunction of the two
  arrays' bits. On the extended reals |x| = max x (-x), the word 0x7F800000 denotes ⊤, and the comparison is the
  strict order. So the bit is 1 exactly when every entry x of both arrays satisfies max x (-x) < ⊤.

  An extended real x with max x (-x) < ⊤ is a real number: at x = ⊤ the maximum is ⊤, and at x = ⊥ it is -⊥ = ⊤,
  so both infinities are excluded and x is the image of some r : ℝ.

  Hence: if the precondition returns 1, every entry of both argument arrays is a real number.
-/
import proofs.«164585_j67817533604081_2_alg».proof.Pre_finite_inputs
import proofs.«164585_j67817533604081_2_alg».proof.Proof.CosineSpec
import Idealize.ShloMosaic.Lib.ReduceAll
import Idealize.ShloMosaic.Lib.ValueIdx
import Idealize.ShloMosaic.PureOps.Ideal

noncomputable section

namespace Cert.FiniteInputs

open Idealize.ShloMosaic

/-- The single-precision word 0x7F800000 (sign 0, exponent all ones, fraction 0) denotes +∞. -/
theorem inf_word : Ideal.ofBits .f32 0x7F800000#32 = (⊤ : EReal) := by
  simp [Ideal.ofBits, Ideal.ieee]

/-- An extended real whose absolute value max x (-x) lies strictly below ⊤ is a real number: the value ⊥ is
    excluded because -⊥ = ⊤, and the value ⊤ because it is itself the maximum. -/
theorem real_of_abs_lt_top (x : EReal) (h : max x (-x) < ⊤) : CosineSpec.IsReal x := by
  induction x using EReal.rec with
  | bot => simp at h
  | coe r => exact ⟨r, rfl⟩
  | top => simp at h

/-- The same, from the bit the comparison |x| < +∞ returns: the bit is 1 only when the strict inequality holds. -/
theorem real_of_cmp (x : EReal)
    (h : Ideal.cmp .olt (max x (-x)) (Ideal.ofBits .f32 0x7F800000#32) = 1#1) : CosineSpec.IsReal x := by
  rw [inf_word] at h
  refine real_of_abs_lt_top x ?_
  by_contra hn
  simp [Ideal.cmp, hn] at h

/-- The shape with no axes has exactly one index, so a conjunction over all axes lands on that one index. -/
theorem scalar_idx_subsingleton : Subsingleton Cert.Pre_finite_inputs.S_.Idx :=
  ⟨fun _ _ => funext fun d => d.elim0⟩

/-- If the precondition returns 1 on the two argument arrays, every entry of both is a real number.
    The result bit is a conjunction of two bits, one per array; each of those is the conjunction over all
    entries of the bit of |x| < +∞; and a conjunction of bits that is 1 has every conjunct 1. -/
theorem real_of_fn [Cert.Pre_finite_inputs.Facts]
    (q : FVec Ideal Cert.Pre_finite_inputs.S8192x256 .f32) (s : FVec Ideal Cert.Pre_finite_inputs.S4096x256 .f32)
    (h : Cert.Pre_finite_inputs.fn (F := Ideal) q s = (fun _ => 1#1)) :
    (∀ i, CosineSpec.IsReal (q i)) ∧ (∀ i, CosineSpec.IsReal (s i)) := by
  haveI := scalar_idx_subsingleton
  have e := congrFun h ValueIdx.ix0
  dsimp only [Cert.Pre_finite_inputs.fn] at e
  obtain ⟨e1, e2⟩ := IntOp.andi_eq_one.1 e
  refine ⟨fun i => ?_, fun i => ?_⟩
  · exact real_of_cmp (q i) (Host.reduce_andi_all _ _ _ _ _ e1 i)
  · exact real_of_cmp (s i) (Host.reduce_andi_all _ _ _ _ _ e2 i)

end Cert.FiniteInputs

end
-- ==== Proof.RefIsCosine.lean ====
/-
  The reference program's result is the cosine specification.

  The reference computes, for the query array x0 (8192 rows of 256 entries) and the support array x1 (4096 rows of
  256 entries), the array whose entry (p, n) is

      (∑ k, x0 (p, k) * x1 (n, k)) / (max (√(0 + ∑ k, x0 (p, k)²)) ε * max (√(0 + ∑ k, x1 (n, k)²)) ε),

  where the inner product contracts the last axis of both arrays, each row norm is a sum started from the value of
  the zero word, the floored norms are spread along the other axis (a column of 8192 norms against a row of 4096
  norms) before they are multiplied, and ε is the value of the single-precision word 0x322BCC77.

  The specification's entry (p, n) is the same quotient with the two sums of squares not preceded by a zero. The
  zero word denotes 0 and 0 + y = y, so the two agree at every index; no assumption on the entries is needed, and
  ε is never evaluated: it is the same word on both sides.
-/
import proofs.«164585_j67817533604081_2_alg».proof.Proof.Gen.ReferenceIdeal.Read
import proofs.«164585_j67817533604081_2_alg».proof.Proof.CosineSpec

noncomputable section

namespace Cert.ReferenceIdeal.RefValue

open Idealize.ShloMosaic Cert.ReferenceIdeal
open scoped BigOperators

/-- The result array of the reference program, as a function of its two argument arrays, is the cosine of every
    query row against every support row.

    At a result index i = (p, n): the left and right operands of the inner product are read at (p, k) and (n, k);
    the norm spread from a column is read at row p, and the norm spread from a row at row n, so the squares summed
    are those of x0 (p, k) and of x1 (n, k). After these identifications of indices the two sides differ only by
    the leading zero of each sum of squares. -/
theorem ref_eq (x0 : (⟨S8192x256, .f32⟩ : BufTy).Contents (Elt Ideal)) (x1 : (⟨S4096x256, .f32⟩ : BufTy).Contents (Elt Ideal)) :
    Cert.ReferenceIdeal.Read.val_main_v12 (F := Ideal) x0 x1 = CosineSpec.cosine x0 x1 := by
  funext i
  -- the index of the left operand of the inner product at (i, k) is (i 0, k)
  have el : ∀ k : Fin 256, Read.lidx_main_v6 i k = ValueIdx.ix2 (⟨(i 0).val, (i 0).isLt⟩ : Fin 8192) k :=
    fun k => funext fun a => Fin.ext (by match a with | ⟨0, _⟩ => rfl | ⟨1, _⟩ => rfl)
  -- the index of the right operand at (i, k) is (i 1, k)
  have er : ∀ k : Fin 256, Read.ridx_main_v6 i k = ValueIdx.ix2 (⟨(i 1).val, (i 1).isLt⟩ : Fin 4096) k :=
    fun k => funext fun a => Fin.ext (by match a with | ⟨0, _⟩ => rfl | ⟨1, _⟩ => rfl)
  -- the query norm seen at i is that of row i 0: its k-th square is read at (i 0, k)
  have e0 : ∀ k : Fin 256, Read.idx_main_call0_v1 (Read.idx_main_v7 (Read.idx_main_v9 i)) k
      = ValueIdx.ix2 (⟨(i 0).val, (i 0).isLt⟩ : Fin 8192) k :=
    fun k => funext fun a => Fin.ext (by match a with | ⟨0, _⟩ => rfl | ⟨1, _⟩ => rfl)
  -- the support norm seen at i is that of row i 1: its k-th square is read at (i 1, k)
  have e1 : ∀ k : Fin 256, Read.idx_main_call1_v1 (Read.idx_main_v8 (Read.idx_main_v10 i)) k
      = ValueIdx.ix2 (⟨(i 1).val, (i 1).isLt⟩ : Fin 4096) k :=
    fun k => funext fun a => Fin.ext (by match a with | ⟨0, _⟩ => rfl | ⟨1, _⟩ => rfl)
  -- read every operation of the reference at its index, outermost first; then 0 + y = y
  simp only [Read.val_main_v12_apply, Read.val_main_v6_apply, Read.val_main_v11_apply, Read.val_main_v9_apply,
    Read.val_main_v7_apply, Read.val_main_v2_apply, Read.val_main_v0_apply, Read.val_main_call0_v1_apply,
    Read.val_main_call0_v0_apply, Read.val_main_call0_cst_apply, Read.val_main_v1_apply, Read.val_main_cst_apply,
    Read.val_main_v10_apply, Read.val_main_v8_apply, Read.val_main_v5_apply, Read.val_main_v3_apply,
    Read.val_main_call1_v1_apply, Read.val_main_call1_v0_apply, Read.val_main_call1_cst_apply, Read.val_main_v4_apply,
    Read.val_main_cst_0_apply, el, er, e0, e1,
    Ideal.hostDivf_def, Ideal.mulf_def, Ideal.maximumf_def, Ideal.hostUnary_sqrt_def, Ideal.ofBits_def,
    Ideal.ofBits_zero_f32, zero_add]
  -- what is left is the specification's entry, by its definition
  rfl

end Cert.ReferenceIdeal.RefValue

end
-- ==== Proof.KernelPieces.lean ====
/-
  What one grid point of the kernel leaves behind, as values of the blocks it was given.

  The body has two shapes. At the first point of a row of the grid (support block 0) it loads the query block x0,
  stores three things computed from x0 alone into buffers that persist across points — x0 itself (the leading part),
  x0 - x0 (the remainder), and the column of floored row norms max(√Σ_d x0², ε) — and then goes on as at every other
  point: it loads the support block x1 and those three buffers and stores the block of quotients. At the other points
  it only does the second half, over whatever the three buffers hold.

  So with `lead`, `rem`, `qnorm` the three functions of the query block and `quot` the function of the support
  block and the three buffers: the first shape leaves (quot x1 (lead x0) (rem x0) (qnorm x0), lead x0, rem x0,
  qnorm x0), the second (quot x1 b0 b1 b2, b0, b1, b2). Stated at every float instance.
-/
import proofs.«164585_j67817533604081_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every load and store of the body: the origin of its buffer. -/
theorem origin : (![0, 0] : Fin 2 → Nat) = fun _ => 0 := funext fun a => by fin_cases a <;> rfl

/-- The leading part of the query block, as stored. -/
abbrev lead (x0 : Vec F S2048x256 .f32) : Vec F S2048x256 .bf16 := k0_pay1 x0
/-- The remainder of the query block, as stored. -/
abbrev rem (x0 : Vec F S2048x256 .f32) : Vec F S2048x256 .bf16 := k0_pay2 x0
/-- The column of floored row norms of the query block. -/
abbrev qnorm (x0 : Vec F S2048x256 .f32) : Vec F S2048x1 .f32 := k0_pay3 x0
/-- The block of quotients, from the support block and the three carried buffers. -/
abbrev quot (x1 : Vec F S512x256 .f32) (b0 b1 : Vec F S2048x256 .bf16) (b2 : Vec F S2048x1 .f32) : Vec F S2048x512 .f32 :=
  k0_pay4 x1 b0 b1 b2

/-- First shape: the first carried buffer ends at the leading part of the query block. -/
theorem first_lead (c : Dev nD) (i : grid0.Coords) (a2 : Memref sig .tc .vmem S2048x256 .f32) (h2 : a2.IsWhole)
    (a3 : Memref sig .tc .vmem S512x256 .f32) (h3 : a3.IsWhole) (a4 : Memref sig .tc .vmem S2048x512 .f32) (h4 : a4.IsWhole)
    (a5 : Memref sig .tc .vmem S2048x256 .bf16) (h5 : a5.IsWhole) (a6 : Memref sig .tc .vmem S2048x256 .bf16) (h6 : a6.IsWhole)
    (a7 : Memref sig .tc .vmem S2048x1 .f32) (h7 : a7.IsWhole) (hc : cond0_0 i)
    (x0 : Vec F S2048x256 .f32) (x1 : Vec F S512x256 .f32) :
    sout0_A_0 c i a2 h2 a3 h3 a4 h4 a5 h5 a6 h6 a7 h7 hc x0 x1 = lead x0 := by
  unfold sout0_A_0
  rw [View.read_writes_eq_canon _ _ _ (scover0_A_0 c i a2 h2 a3 h3 a4 h4 a5 h5 a6 h6 a7 h7 hc x0 x1)]
  unfold kernelRun0_A
  dsimp only
  sl_unfold_words
  rw [View.canon_unit_zero origin]
  simp only [View.readAt_eq_ld, h2.read_unread, View.ld_unit_zero (S := S2048x256) origin]

/-- First shape: the second carried buffer ends at the remainder of the query block. -/
theorem first_rem (c : Dev nD) (i : grid0.Coords) (a2 : Memref sig .tc .vmem S2048x256 .f32) (h2 : a2.IsWhole)
    (a3 : Memref sig .tc .vmem S512x256 .f32) (h3 : a3.IsWhole) (a4 : Memref sig .tc .vmem S2048x512 .f32) (h4 : a4.IsWhole)
    (a5 : Memref sig .tc .vmem S2048x256 .bf16) (h5 : a5.IsWhole) (a6 : Memref sig .tc .vmem S2048x256 .bf16) (h6 : a6.IsWhole)
    (a7 : Memref sig .tc .vmem S2048x1 .f32) (h7 : a7.IsWhole) (hc : cond0_0 i)
    (x0 : Vec F S2048x256 .f32) (x1 : Vec F S512x256 .f32) :
    sout0_A_1 c i a2 h2 a3 h3 a4 h4 a5 h5 a6 h6 a7 h7 hc x0 x1 = rem x0 := by
  unfold sout0_A_1
  rw [View.read_writes_eq_canon _ _ _ (scover0_A_1 c i a2 h2 a3 h3 a4 h4 a5 h5 a6 h6 a7 h7 hc x0 x1)]
  unfold kernelRun0_A
  dsimp only
  sl_unfold_words
  rw [View.canon_unit_zero origin]
  simp only [View.readAt_eq_ld, h2.read_unread, View.ld_unit_zero (S := S2048x256) origin]

/-- First shape: the third carried buffer ends at the column of floored row norms of the query block. -/
theorem first_qnorm (c : Dev nD) (i : grid0.Coords) (a2 : Memref sig .tc .vmem S2048x256 .f32) (h2 : a2.IsWhole)
    (a3 : Memref sig .tc .vmem S512x256 .f32) (h3 : a3.IsWhole) (a4 : Memref sig .tc .vmem S2048x512 .f32) (h4 : a4.IsWhole)
    (a5 : Memref sig .tc .vmem S2048x256 .bf16) (h5 : a5.IsWhole) (a6 : Memref sig .tc .vmem S2048x256 .bf16) (h6 : a6.IsWhole)
    (a7 : Memref sig .tc .vmem S2048x1 .f32) (h7 : a7.IsWhole) (hc : cond0_0 i)
    (x0 : Vec F S2048x256 .f32) (x1 : Vec F S512x256 .f32) :
    sout0_A_2 c i a2 h2 a3 h3 a4 h4 a5 h5 a6 h6 a7 h7 hc x0 x1 = qnorm x0 := by
  unfold sout0_A_2
  rw [View.read_writes_eq_canon _ _ _ (scover0_A_2 c i a2 h2 a3 h3 a4 h4 a5 h5 a6 h6 a7 h7 hc x0 x1)]
  unfold kernelRun0_A
  dsimp only
  sl_unfold_words
  rw [View.canon_unit_zero origin]
  simp only [View.readAt_eq_ld, h2.read_unread, View.ld_unit_zero (S := S2048x256) origin]

/-- First shape: the output block ends at the quotients over the three buffers just stored, each read back whole. -/
theorem first_out (c : Dev nD) (i : grid0.Coords) (a2 : Memref sig .tc .vmem S2048x256 .f32) (h2 : a2.IsWhole)
    (a3 : Memref sig .tc .vmem S512x256 .f32) (h3 : a3.IsWhole) (a4 : Memref sig .tc .vmem S2048x512 .f32) (h4 : a4.IsWhole)
    (a5 : Memref sig .tc .vmem S2048x256 .bf16) (h5 : a5.IsWhole) (a6 : Memref sig .tc .vmem S2048x256 .bf16) (h6 : a6.IsWhole)
    (a7 : Memref sig .tc .vmem S2048x1 .f32) (h7 : a7.IsWhole) (hc : cond0_0 i)
    (x0 : Vec F S2048x256 .f32) (x1 : Vec F S512x256 .f32) :
    out0_A_2 c i a2 h2 a3 h3 a4 h4 a5 h5 a6 h6 a7 h7 hc x0 x1 = quot x1 (lead x0) (rem x0) (qnorm x0) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_unit_zero origin]
  simp only [View.readAt_eq_ld, h2.read_unread, h3.read_unread,
    View.ld_unit_zero (S := S2048x256) origin, View.ld_unit_zero (S := S512x256) origin]
  rw [View.readCov_unit_zero (S := S2048x256) a5.view origin, View.readCov_unit_zero (S := S2048x256) a6.view origin,
    View.readCov_unit_zero (S := S2048x1) a7.view origin]

/-- Second shape: the output block ends at the quotients over what the three buffers held. -/
theorem later_out (c : Dev nD) (i : grid0.Coords) (a2 : Memref sig .tc .vmem S2048x256 .f32) (h2 : a2.IsWhole)
    (a3 : Memref sig .tc .vmem S512x256 .f32) (h3 : a3.IsWhole) (a4 : Memref sig .tc .vmem S2048x512 .f32) (h4 : a4.IsWhole)
    (a5 : Memref sig .tc .vmem S2048x256 .bf16) (h5 : a5.IsWhole) (a6 : Memref sig .tc .vmem S2048x256 .bf16) (h6 : a6.IsWhole)
    (a7 : Memref sig .tc .vmem S2048x1 .f32) (h7 : a7.IsWhole) (hc : ¬cond0_0 i)
    (x0 : Vec F S2048x256 .f32) (x1 : Vec F S512x256 .f32) (b0 b1 : Vec F S2048x256 .bf16) (b2 : Vec F S2048x1 .f32) :
    out0_B_2 c i a2 h2 a3 h3 a4 h4 a5 h5 a6 h6 a7 h7 hc x0 x1 b0 b1 b2 = quot x1 b0 b1 b2 := by
  unfold out0_B_2
  rw [View.read_writes_eq_canon _ _ _ (cover0_B_2 c i a2 h2 a3 h3 a4 h4 a5 h5 a6 h6 a7 h7 hc x0 x1 b0 b1 b2)]
  unfold kernelRun0_B
  dsimp only
  sl_unfold_words
  rw [View.canon_unit_zero origin]
  simp only [View.readAt_eq_ld, h3.read_unread, h5.read_unread, h6.read_unread, h7.read_unread,
    View.ld_unit_zero (S := S2048x256) origin, View.ld_unit_zero (S := S512x256) origin, View.ld_unit_zero (S := S2048x1) origin]

end Cert.KernelIdeal.Pieces

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibGatedMix.lean ====
/-
  A thresholded-logistic mixture of the rows of a small table, read one entry at a time at the exact
  (extended-real) values.

  x is an M×D array and W a T×D table.  Row p of x is scored against every row of W,
      s(p, t) = Σ_d x(p, d) · W(t, d),
  each score becomes a weight  g(s) = logistic(s),  replaced by z wherever logistic(s) < θ,  and the weighted
  rows of W are added back onto x:
      mix(x, W)(p, q) = x(p, q) + Σ_t g(s(p, t)) · W(t, q).
  Entry (p, q) sees x only through its row p.  So the mixture of a block of rows is the same block of the
  mixture of the whole array, and a computation done block of rows by block of rows agrees with one done whole.

  Two spellings of this function are identified with it, for every M, D, T:  the vector unit's (a product with the
  table contracted on its last axis into a zero accumulator, the logistic operation, a compare-and-select against
  splat scalars, a plain product into a zero accumulator, an add), and the host's (two dot_generals, the
  logistic spelt 1 / (1 + exp(−s)) over arrays that hold 1 everywhere, a compare-and-select against arrays that
  hold θ and z everywhere, an add).  Both products are plain finite sums over the extended reals and nothing here
  moves a factor across a sum, so no finiteness of the entries is used.
-/
import Idealize.ShloMosaic.Lib.ValueIdx
import Idealize.ShloMosaic.PureOps.Ideal.Laws
import proofs.«164585_j67817533604081_2_alg».proof.Proof.LibRowDot

noncomputable section

open scoped BigOperators

namespace Cert.GatedMix

open Idealize.ShloMosaic Idealize.ShloMosaic.ValueIdx Cert.RowDot

/-! ## A product with the right operand contracted on its last axis -/

/-- Entry t of (row · Wᵀ) for a T×D matrix W:  the sum over d of row(d) · W(t, d). -/
def rowDotT {D T : Nat} (row : Fin D → EReal) (W : (⟨2, ![T, D]⟩ : Shape).Idx → EReal) (t : Fin T) : EReal :=
  ∑ d : Fin D, row d * W (ix2 t d)

/-- The contraction shape of such a product is one axis. -/
theorem transposed_rank (M K N : Nat) : (DotDims.transposedRhs M K N).contr.rank = 1 := rfl

/-- The left operand's index at output index j keeps j's row. -/
theorem transposed_lhs0 {M K N : Nat} (j : (⟨2, ![M, N]⟩ : Shape).Idx) (u : (DotDims.transposedRhs M K N).contr.Idx) :
    ((DotDims.transposedRhs M K N).lhsIdx j u 0).val = (j 0).val := by
  unfold DotDims.lhsIdx
  rw [dif_neg (show ¬((0 : Fin (⟨2, ![M, K]⟩ : Shape).rank) ∈ (DotDims.transposedRhs M K N).lhsBatch) from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposed_lhs1 {M K N : Nat} (j : (⟨2, ![M, N]⟩ : Shape).Idx) (u : (DotDims.transposedRhs M K N).contr.Idx) :
    ((DotDims.transposedRhs M K N).lhsIdx j u 1).val = (u ⟨0, by rw [transposed_rank]; exact Nat.one_pos⟩).val :=
  (DotDims.transposedRhs M K N).lhsIdx_val_of_single rfl j u

/-- The right operand's row is j's column. -/
theorem transposed_rhs0 {M K N : Nat} (j : (⟨2, ![M, N]⟩ : Shape).Idx) (u : (DotDims.transposedRhs M K N).contr.Idx) :
    ((DotDims.transposedRhs M K N).rhsIdx j u 0).val = (j 1).val := by
  unfold DotDims.rhsIdx
  rw [dif_neg (show ¬((0 : Fin (⟨2, ![N, K]⟩ : Shape).rank) ∈ (DotDims.transposedRhs M K N).rhsBatch) from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposed_rhs1 {M K N : Nat} (j : (⟨2, ![M, N]⟩ : Shape).Idx) (u : (DotDims.transposedRhs M K N).contr.Idx) :
    ((DotDims.transposedRhs M K N).rhsIdx j u 1).val = (u ⟨0, by rw [transposed_rank]; exact Nat.one_pos⟩).val :=
  (DotDims.transposedRhs M K N).rhsIdx_val_of_single rfl j u

/-- The contraction's sum, re-indexed by k < K: row (j 0) of l against row (j 1) of r. -/
theorem transposed_contr_sum {M K N : Nat} (l : (⟨2, ![M, K]⟩ : Shape).Idx → EReal) (r : (⟨2, ![N, K]⟩ : Shape).Idx → EReal)
    (j : (⟨2, ![M, N]⟩ : Shape).Idx) :
    ∑ u : (DotDims.transposedRhs M K N).contr.Idx,
        l ((DotDims.transposedRhs M K N).lhsIdx j u) * r ((DotDims.transposedRhs M K N).rhsIdx j u)
      = rowDotT (rowOf l (j 0)) r (j 1) := by
  unfold rowDotT rowOf
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposed_lhs0 j _
      | ⟨1, _⟩ => exact (transposed_lhs1 j _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposed_rhs0 j _
      | ⟨1, _⟩ => exact (transposed_rhs1 j _).trans hk)
  exact congrArg₂ (fun a b : EReal => a * b) (congrArg l el) (congrArg r er)

/-- The vector unit's product into the zero accumulator, at an entry. -/
theorem matmul_transposed_zero_apply {M K N : Nat} {φ₁ φ₂ : FTy} (prec : Option ContractPrecision)
    (lhs : FVec Ideal (⟨2, ![M, K]⟩ : Shape) φ₁) (rhs : FVec Ideal (⟨2, ![N, K]⟩ : Shape) φ₂) (j : (⟨2, ![M, N]⟩ : Shape).Idx) :
    FloatOps.matmul (DotDims.transposedRhs M K N) prec lhs rhs (constant (F := Ideal) (⟨2, ![M, N]⟩ : Shape) .f32 0x00000000#32) j
      = rowDotT (rowOf lhs (j 0)) rhs (j 1) := by
  rw [Ideal.matmul_constant_zero_apply]
  exact transposed_contr_sum lhs rhs j

/-- The host's dot_general, at an entry. -/
theorem dotGeneral_transposed_apply {M K N : Nat} {φ₁ φ₂ : FTy} (prec : Option ContractPrecision) (sched : HostSchedule)
    (lhs : FVec Ideal (⟨2, ![M, K]⟩ : Shape) φ₁) (rhs : FVec Ideal (⟨2, ![N, K]⟩ : Shape) φ₂) (j : (⟨2, ![M, N]⟩ : Shape).Idx) :
    FloatOps.dotGeneral (DotDims.transposedRhs M K N) prec sched lhs rhs j = rowDotT (rowOf lhs (j 0)) rhs (j 1) := by
  rw [Ideal.dotGeneral_apply]
  exact transposed_contr_sum lhs rhs j

/-! ## The mixture -/

/-- The weight of a score: its logistic, replaced by z where that is strictly below θ. -/
def gate (θ z s : EReal) : EReal :=
  Scalar.select (FloatOps.cmpf (F := Ideal) (φ := .f32) .olt (Ideal.logistic s) θ) z (Ideal.logistic s)

/-- One row of the mixture: the row plus the table's rows weighted by the gated scores of the row. -/
def mixRow {D T : Nat} (θ z : EReal) (row : Fin D → EReal) (W : (⟨2, ![T, D]⟩ : Shape).Idx → EReal) (q : Fin D) : EReal :=
  row q + ∑ t : Fin T, gate θ z (rowDotT row W t) * W (ix2 t q)

/-- The mixture of an M×D array with a T×D table: entry (p, q) is entry q of the mixture of row p. -/
def mix {M D T : Nat} (θ z : EReal) (x : (⟨2, ![M, D]⟩ : Shape).Idx → EReal) (W : (⟨2, ![T, D]⟩ : Shape).Idx → EReal) :
    (⟨2, ![M, D]⟩ : Shape).Idx → EReal :=
  fun j => mixRow θ z (rowOf x (j 0)) W (j 1)

/-- Entry (p, q) of the mixture depends on x through row p only: if row p' of x' is row p of x, the entries agree. -/
theorem mix_rows {M M' D T : Nat} (θ z : EReal) (x : (⟨2, ![M, D]⟩ : Shape).Idx → EReal) (x' : (⟨2, ![M', D]⟩ : Shape).Idx → EReal)
    (W : (⟨2, ![T, D]⟩ : Shape).Idx → EReal) (p : Fin M) (p' : Fin M') (q : Fin D)
    (h : ∀ d : Fin D, x' (ix2 p' d) = x (ix2 p d)) :
    mix θ z x' W (ix2 p' q) = mix θ z x W (ix2 p q) := by
  have hr : rowOf x' p' = rowOf x p := funext h
  show mixRow θ z (rowOf x' p') W q = mixRow θ z (rowOf x p) W q
  rw [hr]

/-- The same for whole indices: entry y of the mixture of x' is entry i of the mixture of x when row (y 0) of x' is row
    (i 0) of x and the two indices name the same column. -/
theorem mix_block {M M' D T : Nat} (θ z : EReal) (x : (⟨2, ![M, D]⟩ : Shape).Idx → EReal) (x' : (⟨2, ![M', D]⟩ : Shape).Idx → EReal)
    (W : (⟨2, ![T, D]⟩ : Shape).Idx → EReal) (y : (⟨2, ![M', D]⟩ : Shape).Idx) (i : (⟨2, ![M, D]⟩ : Shape).Idx)
    (hrow : ∀ d : Fin D, x' (ix2 (y 0) d) = x (ix2 (i 0) d)) (hcol : (i 1).val = (y 1).val) :
    mix θ z x' W y = mix θ z x W i := by
  have e0 : rowOf x' (y 0) = rowOf x (i 0) := funext hrow
  have e1 : (y 1 : Fin D) = (i 1 : Fin D) := Fin.ext hcol.symm
  show mixRow θ z (rowOf x' (y 0)) W (y 1) = mixRow θ z (rowOf x (i 0)) W (i 1)
  exact congrArg₂ (fun (r : Fin D → EReal) (q : Fin D) => mixRow θ z r W q) e0 e1

/-! ## The vector unit's spelling -/

/-- A product contracted on the table's last axis into zero, the logistic, the compare-and-select against two splat
    scalars, a plain product with the table into zero, and the add: the mixture, with θ and z the two words' values. -/
theorem vector_form {M D T : Nat} (p₁ p₂ : Option ContractPrecision) (θw zw : BitVec 32)
    (x : FVec Ideal (⟨2, ![M, D]⟩ : Shape) .f32) (W : FVec Ideal (⟨2, ![T, D]⟩ : Shape) .f32) :
    addf x (matmul (DotDims.plain M T D) p₂
        (select
          (cmpf .olt
            (logistic (matmul (DotDims.transposedRhs M D T) p₁ x W (constant (⟨2, ![M, T]⟩ : Shape) .f32 0x00000000#32)))
            (broadcast (⟨2, ![M, T]⟩ : Shape) (Scalar.ofBits (F := Ideal) .f32 θw)))
          (broadcast (⟨2, ![M, T]⟩ : Shape) (Scalar.ofBits (F := Ideal) .f32 zw))
          (logistic (matmul (DotDims.transposedRhs M D T) p₁ x W (constant (⟨2, ![M, T]⟩ : Shape) .f32 0x00000000#32))))
        W (constant (⟨2, ![M, D]⟩ : Shape) .f32 0x00000000#32))
      = mix (Ideal.ofBits .f32 θw) (Ideal.ofBits .f32 zw) x W := by
  funext j
  obtain ⟨p, q, rfl⟩ : ∃ (p : Fin M) (q : Fin D), j = ix2 p q := ⟨j 0, j 1, eq_ix2 j⟩
  rw [addf_apply]
  refine congrArg (x (ix2 p q) + ·) ?_
  refine (matmul_plain_zero_apply p₂ _ W (ix2 p q)).trans ?_
  refine Finset.sum_congr rfl fun t _ => ?_
  refine congrArg (· * W (ix2 t q)) ?_
  show Scalar.select (FloatOps.cmpf .olt (Ideal.logistic (FloatOps.matmul (DotDims.transposedRhs M D T) p₁ x W
      (constant (F := Ideal) (⟨2, ![M, T]⟩ : Shape) .f32 0x00000000#32) (ix2 p t))) (Ideal.ofBits .f32 θw)) (Ideal.ofBits .f32 zw)
      (Ideal.logistic (FloatOps.matmul (DotDims.transposedRhs M D T) p₁ x W
      (constant (F := Ideal) (⟨2, ![M, T]⟩ : Shape) .f32 0x00000000#32) (ix2 p t))) = _
  rw [matmul_transposed_zero_apply]
  rfl

/-! ## The host's spelling -/

/-- The f32 word of 1.0 is the number 1. -/
theorem one_word : Ideal.ofBits .f32 0x3F800000#32 = 1 := by
  simp [Ideal.ofBits, Ideal.ieee, -EReal.coe_mul]; norm_num

/-- Two dot_generals, the logistic spelt 1 / (1 + exp(−s)) over arrays that are 1 everywhere, the compare-and-select
    against arrays that are θ and z everywhere, and the add: the mixture. -/
theorem host_form {M D T : Nat} (p₁ p₂ : Option ContractPrecision) (θ z : EReal)
    (x : FVec Ideal (⟨2, ![M, D]⟩ : Shape) .f32) (W : FVec Ideal (⟨2, ![T, D]⟩ : Shape) .f32)
    (one one' θv zv : FVec Ideal (⟨2, ![M, T]⟩ : Shape) .f32)
    (h1 : ∀ i, one i = 1) (h1' : ∀ i, one' i = 1) (hθ : ∀ i, θv i = θ) (hz : ∀ i, zv i = z) :
    addf x (Host.dotGeneral (DotDims.plain M T D) p₂
        (select
          (cmpf .olt
            (Host.divf one (addf one' (Host.exp (Host.negf (Host.dotGeneral (DotDims.transposedRhs M D T) p₁ x W)))))
            θv)
          zv
          (Host.divf one (addf one' (Host.exp (Host.negf (Host.dotGeneral (DotDims.transposedRhs M D T) p₁ x W))))))
        W)
      = mix θ z x W := by
  funext j
  obtain ⟨p, q, rfl⟩ : ∃ (p : Fin M) (q : Fin D), j = ix2 p q := ⟨j 0, j 1, eq_ix2 j⟩
  rw [addf_apply]
  refine congrArg (x (ix2 p q) + ·) ?_
  refine (dotGeneral_plain_apply p₂ .single _ W (ix2 p q)).trans ?_
  refine Finset.sum_congr rfl fun t _ => ?_
  refine congrArg (· * W (ix2 t q)) ?_
  show Scalar.select (FloatOps.cmpf .olt
      (FloatOps.hostDivf (one (ix2 p t)) (FloatOps.addf (one' (ix2 p t)) (FloatOps.hostUnary .exp (FloatOps.hostNegf
        (FloatOps.dotGeneral (DotDims.transposedRhs M D T) p₁ .single x W (ix2 p t))))))
      (θv (ix2 p t))) (zv (ix2 p t))
      (FloatOps.hostDivf (one (ix2 p t)) (FloatOps.addf (one' (ix2 p t)) (FloatOps.hostUnary .exp (FloatOps.hostNegf
        (FloatOps.dotGeneral (DotDims.transposedRhs M D T) p₁ .single x W (ix2 p t)))))) = _
  rw [dotGeneral_transposed_apply, h1, h1', hθ, hz]
  rfl

end Cert.GatedMix

end
-- ==== Proof.BlockEntry.lean ====
/-
  One block of the kernel's output, entry by entry, on the extended reals.

  Given a query block x0 (2048 rows) and a support block x1 (512 rows), both with 256 columns, the body forms
    lead = x0,  rem = x0 - x0,  qnorm(a) = max(√Σ_d x0(a,d)², ε)
  and then entry (a, b) of the output block as
    ( Σ_d lead(a,d)·x1(b,d) + Σ_d lead(a,d)·(x1(b,d) - x1(b,d)) + Σ_d rem(a,d)·x1(b,d) )
      / ( qnorm(a) · max(√(Σ_d 1·x1(b,d)² + Σ_d 1·(x1(b,d)² - x1(b,d)²)), ε) ).
  When the entries of both blocks are real numbers every remainder is 0 and this is the cosine of row a of x0 and row
  b of x1 with floored norms.
-/
import proofs.«164585_j67817533604081_2_alg».proof.Proof.Gen.KernelIdeal.Skeleton
import proofs.«164585_j67817533604081_2_alg».proof.Proof.CosineSpec
import proofs.«164585_j67817533604081_2_alg».proof.Proof.LibGatedMix
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx
open scoped BigOperators

namespace Cert.KernelIdeal.BlockEntry

open Cert.KernelIdeal Cert.KernelIdeal.Gen CosineSpec Cert.RowDot Cert.GatedMix

/-! ## The two products' dimension records and the small layout steps -/

/-- The block product's dimension record is the plain "both operands contracted on their last axis" one. -/
theorem dotQ : dot_S2048x256_S512x256_S2048x512_1_1_0_0_n_n = DotDims.transposedRhs 2048 256 512 := rfl
/-- So is the record of the product of the row of ones with the squared support block. -/
theorem dotOne : dot_S1x256_S512x256_S1x512_1_1_0_0_n_n = DotDims.transposedRhs 1 256 512 := rfl

/-- The bf16 word of 1.0, as an extended real. -/
abbrev oneW : EReal := Ideal.ofBits .bf16 0x3F80#16

/-- A column [2048, 1] broadcast to [2048, 512] reads, at (a, b), the column at row a. -/
theorem col_bcast {α : Type} (v : S2048x1.Idx → α) (h : S2048x1.Broadcasts S2048x512) (a : Fin 2048) (b : Fin 512) :
    broadcastTo S2048x512 v h (ix2 a b) = v (ix2 a (0 : Fin 1)) := by
  refine broadcastTo_apply v h (ix2 a b) (ix2 a (0 : Fin 1)) fun ax => ?_
  match ax with
  | ⟨0, _⟩ =>
    show a.val = if (2048 : Nat) = 1 then 0 else a.val
    rw [if_neg (by decide)]
  | ⟨1, _⟩ => rfl

/-- A vector [2048] recast as a column [2048, 1] reads, at (a, 0), the vector at a. -/
theorem col_cast {α : Type} (v : S2048.Idx → α) (h : S2048.ShapeCasts S2048x1) (a : Fin 2048) (z : Fin 1) :
    shapeCast S2048x1 v h (ix2 a z) = v (ix1 a) := by
  refine shapeCast_apply v h (ix2 a z) (ix1 a) ?_
  rw [Shape.rowMajor_val_one, Shape.rowMajor_val_two]
  show a.val = a.val * 1 + z.val
  have := z.isLt
  omega

/-- The sum along the rows of a [2048, 256] block, from zero, read at row a. -/
theorem row_sum (v : FVec Ideal S2048x256 .f32) (h : S2048x256.Reduces [1] S2048) (hφ : FKind.Formats (.f32 : FTy))
    (hacc : (0x00000000#32 : BitVec 32) = 0x00000000#32) (a : Fin 2048) :
    multiReduction (F := Ideal) .add [1] S2048 v 0x00000000#32 h hφ hacc (ix1 a) = ∑ d : Fin 256, v (ix2 a d) := by
  refine (Ideal.multiReduction_add_single v 0x00000000#32 h hφ hacc (ix1 a)).trans ?_
  refine Finset.sum_congr rfl fun d _ => congrArg v ?_
  funext ax
  match ax with
  | ⟨0, _⟩ => rfl
  | ⟨1, _⟩ => rfl

/-! ## The three carried values and the quotient block, entry by entry -/

/-- The leading part of the query block is the block: a change of float format is the identity on the extended reals. -/
theorem lead_apply (x0 : FVec Ideal S2048x256 .f32) (j : S2048x256.Idx) : k0_pay1 (F := Ideal) x0 j = x0 j := by
  unfold k0_pay1
  simp only [shapeCast_self]
  rfl

/-- The remainder of the query block is x - x, entry by entry. -/
theorem rem_apply (x0 : FVec Ideal S2048x256 .f32) (j : S2048x256.Idx) : k0_pay2 (F := Ideal) x0 j = x0 j - x0 j := by
  unfold k0_pay2
  simp only [shapeCast_self]
  rfl

/-- The floored norm of row a of the query block. -/
theorem qnorm_apply (x0 : FVec Ideal S2048x256 .f32) (a : Fin 2048) (z : Fin 1) :
    k0_pay3 (F := Ideal) x0 (ix2 a z) = max (Ideal.sqrt (∑ d : Fin 256, x0 (ix2 a d) * x0 (ix2 a d))) eps := by
  unfold k0_pay3
  simp only [shapeCast_self, maximumf_apply, broadcast_apply]
  refine congrArg (fun v => max (Ideal.sqrt v) eps) ?_
  refine (col_cast _ _ a z).trans ?_
  exact row_sum _ _ _ _ a

/-- Entry (a, b) of the quotient block, as the body computes it: the three partial products summed, over the carried
    norm of row a times the floored root of the two partial sums of squares of support row b. -/
theorem quot_apply (x1 : FVec Ideal S512x256 .f32) (b0 b1 : FVec Ideal S2048x256 .bf16) (b2 : FVec Ideal S2048x1 .f32)
    (a : Fin 2048) (b : Fin 512) :
    k0_pay4 (F := Ideal) x1 b0 b1 b2 (ix2 a b)
      = Ideal.div (((∑ d : Fin 256, b0 (ix2 a d) * x1 (ix2 b d)) + ∑ d : Fin 256, b0 (ix2 a d) * (x1 (ix2 b d) - x1 (ix2 b d)))
            + ∑ d : Fin 256, b1 (ix2 a d) * x1 (ix2 b d))
          (b2 (ix2 a (0 : Fin 1)) * max (Ideal.sqrt ((∑ d : Fin 256, oneW * (x1 (ix2 b d) * x1 (ix2 b d)))
            + ∑ d : Fin 256, oneW * (x1 (ix2 b d) * x1 (ix2 b d) - x1 (ix2 b d) * x1 (ix2 b d)))) eps) := by
  unfold k0_pay4
  simp only [divf_apply, addf_apply, mulf_apply, dotQ, dotOne]
  rw [col_bcast b2 _ a b, broadcastTo_1b_ab_apply _ _ a b]
  simp only [maximumf_apply, broadcast_apply]
  have root_apply : ∀ (v : FVec Ideal S1x512 .f32) (i : S1x512.Idx), sqrt v i = Ideal.sqrt (v i) := fun _ _ => rfl
  rw [root_apply, addf_apply]
  simp only [matmul_transposed_zero_apply]
  rfl

/-! ## On real entries the block is the cosine of the rows -/

/-- The bf16 word of 1.0 is the number 1. -/
theorem oneW_eq : oneW = 1 := by
  simp [oneW, Ideal.ofBits, Ideal.ieee, -EReal.coe_mul]; norm_num

/-- With the three carried values taken from the query block itself, entry (a, b) of the output block is the cosine
    of row a of the query block and row b of the support block, when both blocks have real entries: every remainder
    x - x is then 0, every product with it is 0, and the row of ones contributes the factor 1. -/
theorem block_entry (x0 : FVec Ideal S2048x256 .f32) (x1 : FVec Ideal S512x256 .f32)
    (h0 : ∀ j, IsReal (x0 j)) (h1 : ∀ j, IsReal (x1 j)) (a : Fin 2048) (b : Fin 512) :
    k0_pay4 (F := Ideal) x1 (k0_pay1 (F := Ideal) x0) (k0_pay2 (F := Ideal) x0) (k0_pay3 (F := Ideal) x0) (ix2 a b)
      = cosRows (fun d : Fin 256 => x0 (ix2 a d)) (fun d : Fin 256 => x1 (ix2 b d)) := by
  rw [quot_apply]
  simp only [lead_apply, rem_apply, qnorm_apply]
  have e1 := split_dot (fun d : Fin 256 => x0 (ix2 a d)) (fun d : Fin 256 => x1 (ix2 b d)) (fun d => h0 _) (fun d => h1 _)
  have e2 := split_sq oneW oneW_eq (fun d : Fin 256 => x1 (ix2 b d)) (fun d => h1 _)
  rw [e1, e2]
  rfl

end Cert.KernelIdeal.BlockEntry

end
-- ==== Proof.KernelWhole.lean ====
/-
  The kernel's result array as one function of its two argument arrays.

  The grid has 32 points, point t = 8·i + j handling query block i (rows 2048·i …) and support block j (rows 512·j …).
  Three buffers persist from point to point; they are written only at the first point of each row of the grid (j = 0),
  from the query block alone. The query block does not change along a row of the grid, so after EVERY point the three
  buffers hold the leading part, the remainder and the floored row norms of that point's own query block (induction on
  the point). Hence every point's output block is the same function of that point's two input blocks, and on real
  entries that function is the cosine of the rows. The 32 output blocks tile the [8192, 4096] result, block t covering
  rows 2048·(t / 8) … and columns 512·(t mod 8) …, so the result array is the cosine array.
-/
import proofs.«164585_j67817533604081_2_alg».proof.Proof.Gen.KernelIdeal.Value
import proofs.«164585_j67817533604081_2_alg».proof.Proof.KernelPieces
import proofs.«164585_j67817533604081_2_alg».proof.Proof.BlockEntry
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Pieces CosineSpec

/-! ## Which blocks a point handles -/

/-- The printed index maps over the 32 points: the query window moves with t / 8, the support window with t mod 8,
    the output window with both; the column-block index of both inputs is 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = t.val % 8 :=
  (by decide +kernel : ∀ t : Fin grid0.N, _)

section AnyInstance

variable {F : FTy → Type} [FloatOps F]
variable (m : (ℓ : Loc nD τ sig) → Buf (Elt F) ℓ)

/-- The query block at point t, entry j, is the query array at row 2048·(t / 8) + j₀, column j₁. -/
theorem qread (c : Dev nD) (t : Fin cfg0.N) (j : S2048x256.Idx) (i : S8192x256.Idx)
    (h0 : (i 0).val = t.val / 8 * 2048 + (j 0).val) (h1 : (i 1).val = (j 1).val) :
    (iblk m c 0 t : Vec F S2048x256 .f32) j = m ((c : Thread nD τ).loc main_arg0) i := by
  obtain ⟨e0, e1, -⟩ := idx_facts t
  show V m c main_arg0 (((cfg0.win 0).blk t).view.emb j) = V m c main_arg0 i
  refine congrArg (V m c main_arg0) ?_
  funext ax
  apply Fin.ext
  match ax with
  | ⟨0, _⟩ => show win0_0.index t (0 : Fin 2) * 2048 + 1 * (j 0).val = (i 0).val; rw [e0, h0]; omega
  | ⟨1, _⟩ => show win0_0.index t (1 : Fin 2) * 256 + 1 * (j 1).val = (i 1).val; rw [e1, h1]; omega

/-- The support block at point t, entry j, is the support array at row 512·(t mod 8) + j₀, column j₁. -/
theorem sread (c : Dev nD) (t : Fin cfg0.N) (j : S512x256.Idx) (i : S4096x256.Idx)
    (h0 : (i 0).val = t.val % 8 * 512 + (j 0).val) (h1 : (i 1).val = (j 1).val) :
    (iblk m c 1 t : Vec F S512x256 .f32) j = m ((c : Thread nD τ).loc main_arg1) i := by
  obtain ⟨-, -, e2, e3, -⟩ := idx_facts t
  show V m c main_arg1 (((cfg0.win 1).blk t).view.emb j) = V m c main_arg1 i
  refine congrArg (V m c main_arg1) ?_
  funext ax
  apply Fin.ext
  match ax with
  | ⟨0, _⟩ => show win0_1.index t (0 : Fin 2) * 512 + 1 * (j 0).val = (i 0).val; rw [e2, h0]; omega
  | ⟨1, _⟩ => show win0_1.index t (1 : Fin 2) * 256 + 1 * (j 1).val = (i 1).val; rw [e3, h1]; omega

/-- Along a row of the grid the query block does not change: points n and n + 1 read the same rows unless n + 1
    starts a new row. -/
theorem qblock_same (c : Dev nD) (n : ℕ) (h : n + 1 < cfg0.N) (h0 : ¬(n + 1) % 8 = 0) :
    (iblk m c 0 ⟨n, Nat.lt_of_succ_lt h⟩ : Vec F S2048x256 .f32) = iblk m c 0 ⟨n + 1, h⟩ := by
  funext j
  have hj0 : (j 0).val < 2048 := idx2_lt0 j
  have hN : cfg0.N = 32 := N_0
  have hn : n + 1 < 32 := hN ▸ h
  exact (qread m c ⟨n, Nat.lt_of_succ_lt h⟩ j (ix2 ⟨(n + 1) / 8 * 2048 + (j 0).val, by omega⟩ ⟨(j 1).val, idx2_lt1 j⟩)
      (by show (n + 1) / 8 * 2048 + (j 0).val = n / 8 * 2048 + (j 0).val; omega) rfl).trans
    (qread m c ⟨n + 1, h⟩ j (ix2 ⟨(n + 1) / 8 * 2048 + (j 0).val, by omega⟩ ⟨(j 1).val, idx2_lt1 j⟩) rfl rfl).symm

/-- At the first point of a row of the grid the three carried buffers are stored from that point's query block. -/
theorem carried_first (c : Dev nD) (t : Fin cfg0.N) (h0 : t.val % 8 = 0) :
    (outsAt0 m c t.val t.isLt).2.1 = lead (iblk m c 0 t) ∧ (outsAt0 m c t.val t.isLt).2.2.1 = rem (iblk m c 0 t)
      ∧ (outsAt0 m c t.val t.isLt).2.2.2 = qnorm (iblk m c 0 t) := by
  rw [outsAt0_A m c t h0]
  dsimp only
  exact ⟨first_lead c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t), first_rem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t), first_qnorm c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)⟩

/-- At any other point they are what the point before left. -/
theorem carried_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 ∧ (outsAt0 m c t.val t.isLt).2.2.1 = (outsAt0 m c (t.val - 1) (Nat.lt_of_le_of_lt (Nat.sub_le _ _) t.isLt)).2.2.1
      ∧ (outsAt0 m c t.val t.isLt).2.2.2 = (outsAt0 m c (t.val - 1) (Nat.lt_of_le_of_lt (Nat.sub_le _ _) t.isLt)).2.2.2 := by
  rw [outsAt0_B m c t h0]
  exact ⟨rfl, rfl, rfl⟩

/-- At the first point of a row of the grid the output block is computed over the buffers just stored. -/
theorem out_first (c : Dev nD) (t : Fin cfg0.N) (h0 : t.val % 8 = 0) :
    (outsAt0 m c t.val t.isLt).1 = quot (iblk m c 1 t) (lead (iblk m c 0 t)) (rem (iblk m c 0 t)) (qnorm (iblk m c 0 t)) := by
  rw [outsAt0_A m c t h0]
  dsimp only
  exact first_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (iblk m c 0 t) (iblk m c 1 t)

/-- At any other point, over what the point before left in them. -/
theorem out_later (c : Dev nD) (t : Fin cfg0.N) (h0 : ¬t.val % 8 = 0) :
    (outsAt0 m c t.val t.isLt).1 = quot (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0]
  dsimp only
  exact later_out c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- After every point the three carried buffers hold the leading part, the remainder and the floored row norms of
    that point's own query block: stored at the first point of a row of the grid, kept along the row, where the
    query block is the same. -/
theorem carried (c : Dev nD) : ∀ (n : ℕ) (h : n < cfg0.N),
    (outsAt0 m c n h).2.1 = lead (iblk m c 0 ⟨n, h⟩) ∧ (outsAt0 m c n h).2.2.1 = rem (iblk m c 0 ⟨n, h⟩)
      ∧ (outsAt0 m c n h).2.2.2 = qnorm (iblk m c 0 ⟨n, h⟩)
  | 0, h => carried_first m c ⟨0, h⟩ (Nat.zero_mod 8)
  | n + 1, h => by
    by_cases h0 : (n + 1) % 8 = 0
    · exact carried_first m c ⟨n + 1, h⟩ h0
    · obtain ⟨l0, l1, l2⟩ := carried_later m c ⟨n + 1, h⟩ h0
      obtain ⟨i0, i1, i2⟩ := carried c n (Nat.lt_of_succ_lt h)
      rw [← qblock_same m c n h h0]
      exact ⟨l0.trans i0, l1.trans i1, l2.trans i2⟩

/-- So every point's output block is one function of that point's two input blocks. -/
theorem out_eq (c : Dev nD) (t : Fin cfg0.N) :
    (outsAt0 m c t.val t.isLt).1 = quot (iblk m c 1 t) (lead (iblk m c 0 t)) (rem (iblk m c 0 t)) (qnorm (iblk m c 0 t)) := by
  by_cases h0 : t.val % 8 = 0
  · exact out_first m c t h0
  · obtain ⟨n, h⟩ := t
    obtain ⟨k, rfl⟩ : ∃ k, n = k + 1 := ⟨n - 1, by have : n ≠ 0 := fun e => h0 (by simp [e]); omega⟩
    obtain ⟨i0, i1, i2⟩ := carried m c k (Nat.lt_of_succ_lt h)
    refine (out_later m c ⟨k + 1, h⟩ h0).trans ?_
    show quot (iblk m c 1 ⟨k + 1, h⟩) (outsAt0 m c k (Nat.lt_of_succ_lt h)).2.1 (outsAt0 m c k (Nat.lt_of_succ_lt h)).2.2.1 (outsAt0 m c k (Nat.lt_of_succ_lt h)).2.2.2 = _
    rw [i0, i1, i2, qblock_same m c k h h0]

end AnyInstance

/-! ## On the extended reals, with real entries -/

/-- A block of the output is the matching block of the cosine array: if the query block x0 is rows P … of q and the
    support block x1 rows N … of s, both real, then entry y of the output block is entry (P + y₀, N + y₁) of the cosine
    array of q and s. -/
theorem block_is_cosine (q : S8192x256.Idx → EReal) (s : S4096x256.Idx → EReal)
    (x0 : FVec Ideal S2048x256 .f32) (x1 : FVec Ideal S512x256 .f32) (P N : ℕ)
    (r0 : ∀ j, IsReal (x0 j)) (r1 : ∀ j, IsReal (x1 j))
    (e0 : ∀ (j : S2048x256.Idx) (i : S8192x256.Idx), (i 0).val = P + (j 0).val → (i 1).val = (j 1).val → x0 j = q i)
    (e1 : ∀ (j : S512x256.Idx) (i : S4096x256.Idx), (i 0).val = N + (j 0).val → (i 1).val = (j 1).val → x1 j = s i)
    (y : S2048x512.Idx) (i : S8192x4096.Idx) (hi0 : (i 0).val = P + (y 0).val) (hi1 : (i 1).val = N + (y 1).val) :
    quot (F := Ideal) x1 (lead (F := Ideal) x0) (rem (F := Ideal) x0) (qnorm (F := Ideal) x0) y = cosine q s i := by
  obtain ⟨a, b, rfl⟩ : ∃ (a : Fin 2048) (b : Fin 512), y = ix2 a b := ⟨y 0, y 1, eq_ix2 y⟩
  refine (BlockEntry.block_entry x0 x1 r0 r1 a b).trans ?_
  unfold cosine entry
  exact congrArg₂ (cosRows (D := Fin 256))
    (funext fun d => e0 (ix2 a d) (ix2 ⟨(i 0).val, (i 0).isLt⟩ d) hi0 rfl)
    (funext fun d => e1 (ix2 b d) (ix2 ⟨(i 1).val, (i 1).isLt⟩ d) hi1 rfl)

section AtIdeal

variable (m : (ℓ : Loc nD τ sig) → Buf (Elt Ideal) ℓ) (ρ : Dev nD → PrngReg)

/-- What point t writes back is block t of the cosine array of the two argument arrays. -/
theorem flushed_eq (c : Dev nD) (hq : ∀ i, IsReal (m ((c : Thread nD τ).loc main_arg0) i))
    (hs : ∀ i, IsReal (m ((c : Thread nD τ).loc main_arg1) i)) (t : Fin cfg0.N) :
    (dats m 0 c).flushed 2 t = ((cfg0.win 2).blk t).view.read (Elt Ideal)
      (cosine (m ((c : Thread nD τ).loc main_arg0)) (m ((c : Thread nD τ).loc main_arg1))) := by
  have hN : cfg0.N = 32 := N_0
  have ht : t.val < 32 := hN ▸ t.isLt
  obtain ⟨-, -, -, -, e4, e5⟩ := idx_facts t
  have r0 : ∀ j : S2048x256.Idx, IsReal ((iblk m c 0 t : Vec Ideal S2048x256 .f32) j) := fun j => by
    have hj0 : (j 0).val < 2048 := idx2_lt0 j
    rw [qread m c t j (ix2 ⟨t.val / 8 * 2048 + (j 0).val, by omega⟩ ⟨(j 1).val, idx2_lt1 j⟩) rfl rfl]
    exact hq _
  have r1 : ∀ j : S512x256.Idx, IsReal ((iblk m c 1 t : Vec Ideal S512x256 .f32) j) := fun j => by
    have hj0 : (j 0).val < 512 := idx2_lt0 j
    rw [sread m c t j (ix2 ⟨t.val % 8 * 512 + (j 0).val, by omega⟩ ⟨(j 1).val, idx2_lt1 j⟩) rfl rfl]
    exact hs _
  rw [Value.flushed2, out_eq m c t]
  funext j
  show quot (iblk m c 1 t) (lead (iblk m c 0 t)) (rem (iblk m c 0 t)) (qnorm (iblk m c 0 t)) j
    = cosine (m ((c : Thread nD τ).loc main_arg0)) (m ((c : Thread nD τ).loc main_arg1)) (((cfg0.win 2).blk t).view.emb j)
  refine block_is_cosine _ _ (iblk m c 0 t) (iblk m c 1 t) (t.val / 8 * 2048) (t.val % 8 * 512) r0 r1
    (fun j i h0 h1 => qread m c t j i h0 h1) (fun j i h0 h1 => sread m c t j i h0 h1) j _ ?_ ?_
  · show win0_2.index t (0 : Fin 2) * 2048 + 1 * (j 0).val = t.val / 8 * 2048 + (j 0).val
    rw [e4]; omega
  · show win0_2.index t (1 : Fin 2) * 512 + 1 * (j 1).val = t.val % 8 * 512 + (j 1).val
    rw [e5]; omega

/-- An index of the result array is in point t's block iff each coordinate is in the block's range on its axis. -/
theorem mem_blk (t : Fin cfg0.N) (i : S8192x4096.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v0).slice (win0_2.rect t)).set ↔ _
  rw [View.set_slice_whole, Rect.mem_set_unit]
  exact Iff.rfl

/-- The 32 blocks tile the result: entry (r, k) is in the block of point 8·(r / 2048) + k / 512. -/
theorem covered (i : S8192x4096.Idx) : ∃ t : Fin cfg0.N, (cfg0.win 2).flush t = true ∧ i ∈ ((cfg0.win 2).blk t).view.set := by
  have hi0 : (i 0).val < 8192 := idx2_lt0 i
  have hi1 : (i 1).val < 4096 := idx2_lt1 i
  have hN : cfg0.N = 32 := N_0
  have hb : (i 0).val / 2048 * 8 + (i 1).val / 512 < cfg0.N := by rw [hN]; omega
  obtain ⟨-, -, -, -, e4, e5⟩ := idx_facts ⟨(i 0).val / 2048 * 8 + (i 1).val / 512, hb⟩
  refine ⟨⟨(i 0).val / 2048 * 8 + (i 1).val / 512, hb⟩, flush0_2 _, ?_⟩
  rw [mem_blk]
  intro a
  match a with
  | ⟨0, _⟩ =>
    show win0_2.index ⟨(i 0).val / 2048 * 8 + (i 1).val / 512, hb⟩ (0 : Fin 2) * 2048 ≤ (i 0).val ∧ (i 0).val < win0_2.index ⟨(i 0).val / 2048 * 8 + (i 1).val / 512, hb⟩ (0 : Fin 2) * 2048 + 2048
    rw [e4]; show ((i 0).val / 2048 * 8 + (i 1).val / 512) / 8 * 2048 ≤ (i 0).val ∧ (i 0).val < ((i 0).val / 2048 * 8 + (i 1).val / 512) / 8 * 2048 + 2048; omega
  | ⟨1, _⟩ =>
    show win0_2.index ⟨(i 0).val / 2048 * 8 + (i 1).val / 512, hb⟩ (1 : Fin 2) * 512 ≤ (i 1).val ∧ (i 1).val < win0_2.index ⟨(i 0).val / 2048 * 8 + (i 1).val / 512, hb⟩ (1 : Fin 2) * 512 + 512
    rw [e5]; show ((i 0).val / 2048 * 8 + (i 1).val / 512) % 8 * 512 ≤ (i 1).val ∧ (i 1).val < ((i 0).val / 2048 * 8 + (i 1).val / 512) % 8 * 512 + 512; omega

/-- The result array after the run is the cosine array of the two argument arrays. -/
theorem final (c : Dev nD) (hq : ∀ i, IsReal (m ((c : Thread nD τ).loc main_arg0) i))
    (hs : ∀ i, IsReal (m ((c : Thread nD τ).loc main_arg1) i)) :
    (dats m 0 c).arrAt 2 cfg0.N = cosine (m ((c : Thread nD τ).loc main_arg0)) (m ((c : Thread nD τ).loc main_arg1)) :=
  (dats m 0 c).arrAt_eq_of_cover 2 (cosine (m ((c : Thread nD τ).loc main_arg0)) (m ((c : Thread nD τ).loc main_arg1)))
    (fun t _ => flushed_eq m c hq hs t) covered

/-- The run, read: every weakly fair execution ends with the result array at the cosine array of the arguments, the
    arguments unchanged — when the arguments' entries are real. -/
theorem run (hreal : ∀ c : Dev nD, (∀ i, IsReal (m ((c : Thread nD τ).loc main_arg0) i)) ∧ (∀ i, IsReal (m ((c : Thread nD τ).loc main_arg1) i))) :
    θ_run defs (onTc (τ := τ) (main (F := Ideal))) ⟨m, fun _ => 0, ρ⟩ fun r => ∀ c : Dev nD,
      r.2.mem ((c : Thread nD τ).loc main_v0) = cosine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hreal c).1 (hreal c).2), (h c).2⟩)
    (Value.run_blocks m ρ)

end AtIdeal

end Cert.KernelIdeal.Whole

end
-- ==== Proof.lean ====
/-
  The certificate's claims, assembled.

  Both idealized programs compute, for every query row p and support row n,
      cos(p, n) = (Σ_d q(p,d)·s(n,d)) / (max(√Σ_d q(p,d)², ε) · max(√Σ_d s(n,d)², ε)),
  ε the same single-precision word on both sides. The reference does so directly. The kernel splits each factor x
  into x and x - x and adds three partial products (and sums the squared support rows against a row of ones, again
  split), block by block over a 4 × 8 grid; on the extended reals x - x = 0 exactly when x is a real number, so the
  equality of the two results uses the precondition that every input entry is finite.

  The three frame claims are the generated frame proofs (the reference's: its generated run with the result
  forgotten). The idealization removed three narrow-then-widen round trips, each the identity on the extended reals.
-/
import proofs.«164585_j67817533604081_2_alg».proof.Defs
import proofs.«164585_j67817533604081_2_alg».proof.Proof.Gen.Kernel
import proofs.«164585_j67817533604081_2_alg».proof.Proof.Gen.Kernel.Skeleton
import proofs.«164585_j67817533604081_2_alg».proof.Proof.Gen.Kernel.Launch
import proofs.«164585_j67817533604081_2_alg».proof.Proof.Gen.Kernel.Points
import proofs.«164585_j67817533604081_2_alg».proof.Proof.Gen.Kernel.Frame
import proofs.«164585_j67817533604081_2_alg».proof.Proof.Gen.KernelIdeal
import proofs.«164585_j67817533604081_2_alg».proof.Proof.Gen.KernelIdeal.Skeleton
import proofs.«164585_j67817533604081_2_alg».proof.Proof.Gen.KernelIdeal.Launch
import proofs.«164585_j67817533604081_2_alg».proof.Proof.Gen.KernelIdeal.Points
import proofs.«164585_j67817533604081_2_alg».proof.Proof.Gen.KernelIdeal.Frame
import proofs.«164585_j67817533604081_2_alg».proof.Proof.Gen.ReferenceIdeal
import proofs.«164585_j67817533604081_2_alg».proof.Proof.Gen.Pre_finite_inputs
import proofs.«164585_j67817533604081_2_alg».proof.Proof.Gen.KernelIdeal.Value
import proofs.«164585_j67817533604081_2_alg».proof.Proof.Gen.ReferenceIdeal.Run
import proofs.«164585_j67817533604081_2_alg».proof.Proof.Gen.ReferenceIdeal.Read
import proofs.«164585_j67817533604081_2_alg».proof.Proof.CosineSpec
import proofs.«164585_j67817533604081_2_alg».proof.Proof.FiniteInputs
import proofs.«164585_j67817533604081_2_alg».proof.Proof.RefIsCosine
import proofs.«164585_j67817533604081_2_alg».proof.Proof.KernelWhole
import Idealize.ShloMosaic.Adequacy
import Idealize.ShloMosaic.Init

noncomputable section

namespace Cert.Proof

open Idealize.ShloMosaic Idealize.ShloMosaic.TcCoe Idealize.SL.Sem

/-- The kernel as printed runs, and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on the extended reals: the three places where the
    idealization dropped such a round trip. -/
theorem preserves : Cert.preserves_Kernel_KernelIdeal :=
  ⟨IdealRules.truncf_extf.statement _ .f32 .bf16, IdealRules.truncf_extf.statement _ .f32 .bf16,
    IdealRules.truncf_extf.statement _ .f32 .bf16⟩

/-- From memories that agree on the two arguments, both finite, the idealized kernel and the idealized reference end
    with the same result: the cosine array of the arguments. -/
theorem algebraic : Cert.algebraic_KernelIdeal_ReferenceIdeal := by
  intro m ρ m' ρ' hpre hagree
  have hreal : ∀ c : Dev Cert.KernelIdeal.nD,
      (∀ i, CosineSpec.IsReal (m ((c : Thread Cert.KernelIdeal.nD Cert.KernelIdeal.τ).loc Cert.KernelIdeal.main_arg0) i))
      ∧ (∀ i, CosineSpec.IsReal (m ((c : Thread Cert.KernelIdeal.nD Cert.KernelIdeal.τ).loc Cert.KernelIdeal.main_arg1) i)) :=
    fun c => Cert.FiniteInputs.real_of_fn _ _ (hpre c)
  refine ⟨fun c => CosineSpec.cosine
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  exact Cert.ReferenceIdeal.RefValue.ref_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
